-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384x3 : Shape := ⟨3, ![1024, 16384, 3]⟩
abbrev S1024x3x4 : Shape := ⟨3, ![1024, 3, 4]⟩
abbrev S_ : Shape := ⟨0, ![]⟩

class Facts : Prop where
  bcast_S_S1024x16384x3 : S_.BroadcastsInDim S1024x16384x3 (![] : Fin 0 → Fin S1024x16384x3.rank)
  reducesTo_S1024x16384x3_S_d0_1_2 : S1024x16384x3.ReducesTo [0, 1, 2] S_
  h_S_ : 0 < S_.numel
  bcast_S_S1024x3x4 : S_.BroadcastsInDim S1024x3x4 (![] : Fin 0 → Fin S1024x3x4.rank)
  reducesTo_S1024x3x4_S_d0_1_2 : S1024x3x4.ReducesTo [0, 1, 2] S_

variable [Facts]

def fn {F : FTy → Type} [FloatOps F] (main_arg0 : FVec F S1024x16384x3 .f32) (main_arg1 : FVec F S1024x3x4 .f32) : IVec S_ 1 :=
  let main_v0 : FVec F S1024x16384x3 .f32 := Host.absf main_arg0
  let main_cst : FVec F S_ .f32 := constant S_ .f32 0x7F800000#32
  let main_v1 : FVec F S1024x16384x3 .f32 := broadcastInDim S1024x16384x3 ![] bcast_S_S1024x16384x3 main_cst
  let main_v2 : IVec S1024x16384x3 1 := cmpf .olt main_v0 main_v1
  let main_c : IVec S_ 1 := constantI S_ 1 1#1
  let main_v3 : IVec S_ 1 := (fun x v => Host.reduce IntOp.andi x v reducesTo_S1024x16384x3_S_d0_1_2 h_S_) main_v2 main_c
  let main_v4 : FVec F S1024x3x4 .f32 := Host.absf main_arg1
  let main_cst_0 : FVec F S_ .f32 := constant S_ .f32 0x7F800000#32
  let main_v5 : FVec F S1024x3x4 .f32 := broadcastInDim S1024x3x4 ![] bcast_S_S1024x3x4 main_cst_0
  let main_v6 : IVec S1024x3x4 1 := cmpf .olt main_v4 main_v5
  let main_c_1 : IVec S_ 1 := constantI S_ 1 1#1
  let main_v7 : IVec S_ 1 := (fun x v => Host.reduce IntOp.andi x v reducesTo_S1024x3x4_S_d0_1_2 h_S_) main_v6 main_c_1
  let main_v8 : IVec S_ 1 := andi main_v3 main_v7
  main_v8
-- ==== Kernel.lean ====
abbrev S1024x16384x3 : Shape := ⟨3, ![1024, 16384, 3]⟩
abbrev S1024x3x4 : Shape := ⟨3, ![1024, 3, 4]⟩
abbrev S1024x16384x2 : Shape := ⟨3, ![1024, 16384, 2]⟩
abbrev S1x16384x3 : Shape := ⟨3, ![1, 16384, 3]⟩
abbrev S1x3x4 : Shape := ⟨3, ![1, 3, 4]⟩
abbrev S1x16384x2 : Shape := ⟨3, ![1, 16384, 2]⟩
abbrev S1x16384x1 : Shape := ⟨3, ![1, 16384, 1]⟩
abbrev S1x1x1 : Shape := ⟨3, ![1, 1, 1]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1024x16384x3, .f32⟩
  | .hbm, ⟨1, _⟩ => ⟨S1024x3x4, .f32⟩
  | .hbm, ⟨2, _⟩ => ⟨S1024x16384x2, .f32⟩
  | .local _ .vmem, ⟨0, _⟩ => ⟨S1x16384x3, .f32⟩
  | .local _ .vmem, ⟨1, _⟩ => ⟨S1x16384x3, .f32⟩
  | .local _ .vmem, ⟨2, _⟩ => ⟨S1x3x4, .f32⟩
  | .local _ .vmem, ⟨3, _⟩ => ⟨S1x3x4, .f32⟩
  | .local _ .vmem, ⟨4, _⟩ => ⟨S1x16384x2, .f32⟩
  | .local _ .vmem, ⟨5, _⟩ => ⟨S1x16384x2, .f32⟩
  | _, _ => ⟨S1024x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x16384x3_S1x16384x3_0_0_0 : ∀ a, (![0, 0, 0] : Fin 3 → Nat) a + S1x16384x3.size a ≤ S1x16384x3.size a
  h_S1x16384x3 : 0 < S1x16384x3.numel
  inb_S1x3x4_S1x3x4_0_0_0 : ∀ a, (![0, 0, 0] : Fin 3 → Nat) a + S1x3x4.size a ≤ S1x3x4.size a
  h_S1x3x4 : 0 < S1x3x4.numel
  slices_S1x16384x3_o0_0_0_S1x16384x1 : S1x16384x3.Slices ![0, 0, 0] S1x16384x1
  slices_S1x16384x3_o0_0_1_S1x16384x1 : S1x16384x3.Slices ![0, 0, 1] S1x16384x1
  slices_S1x16384x3_o0_0_2_S1x16384x1 : S1x16384x3.Slices ![0, 0, 2] S1x16384x1
  slices_S1x3x4_o0_0_0_S1x1x1 : S1x3x4.Slices ![0, 0, 0] S1x1x1
  shapeCasts_S1x1x1_S1 : S1x1x1.ShapeCasts S1
  shapeCasts_S1_S1x1x1 : S1.ShapeCasts S1x1x1
  slices_S1x3x4_o0_0_1_S1x1x1 : S1x3x4.Slices ![0, 0, 1] S1x1x1
  slices_S1x3x4_o0_0_2_S1x1x1 : S1x3x4.Slices ![0, 0, 2] S1x1x1
  slices_S1x3x4_o0_0_3_S1x1x1 : S1x3x4.Slices ![0, 0, 3] S1x1x1
  broadcasts_S1x1x1_S1x16384x1 : S1x1x1.Broadcasts S1x16384x1
  slices_S1x3x4_o0_1_0_S1x1x1 : S1x3x4.Slices ![0, 1, 0] S1x1x1
  slices_S1x3x4_o0_1_1_S1x1x1 : S1x3x4.Slices ![0, 1, 1] S1x1x1
  slices_S1x3x4_o0_1_2_S1x1x1 : S1x3x4.Slices ![0, 1, 2] S1x1x1
  slices_S1x3x4_o0_1_3_S1x1x1 : S1x3x4.Slices ![0, 1, 3] S1x1x1
  slices_S1x3x4_o0_2_0_S1x1x1 : S1x3x4.Slices ![0, 2, 0] S1x1x1
  slices_S1x3x4_o0_2_1_S1x1x1 : S1x3x4.Slices ![0, 2, 1] S1x1x1
  slices_S1x3x4_o0_2_2_S1x1x1 : S1x3x4.Slices ![0, 2, 2] S1x1x1
  slices_S1x3x4_o0_2_3_S1x1x1 : S1x3x4.Slices ![0, 2, 3] S1x1x1
  concatenates_S1x16384x1_S1x16384x1_S1x16384x2_d2 : Shape.Concatenates [S1x16384x1, S1x16384x1] S1x16384x2 2
  inb_S1x16384x2_S1x16384x2_0_0_0 : ∀ a, (![0, 0, 0] : Fin 3 → Nat) a + S1x16384x2.size a ≤ S1x16384x2.size a
  h_S1x16384x2 : 0 < S1x16384x2.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x3.size a ≤ S1024x16384x3.size a
  hwx0_0 : ∀ i : grid0.Coords, EltTy.bits .f32 = 32 ∨ (Rect.block (s := S1024x16384x3) S1x16384x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4.size a ≤ S1024x3x4.size a
  hwx0_1 : ∀ i : grid0.Coords, EltTy.bits .f32 = 32 ∨ (Rect.block (s := S1024x3x4) S1x3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x2.size a ≤ S1024x16384x2.size a
  hwx0_2 : ∀ i : grid0.Coords, EltTy.bits .f32 = 32 ∨ (Rect.block (s := S1024x16384x2) S1x16384x2.size (cc0_transform_2 i) (hinb0_2 i)).WholeWords (EltTy.packing .f32)

variable [Facts₀]

abbrev win0_0 : Pipeline.Window sig grid0 :=
  Pipeline.Window.ofSpec (Memref.whole main_arg0) S1x16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16384x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16384x3 : Shape := ⟨3, ![1024, 16384, 3]⟩
abbrev S1024x3x4 : Shape := ⟨3, ![1024, 3, 4]⟩
abbrev S_ : Shape := ⟨0, ![]⟩
abbrev S1024x16384x1 : Shape := ⟨3, ![1024, 16384, 1]⟩
abbrev S1024x16384x4 : Shape := ⟨3, ![1024, 16384, 4]⟩
abbrev S1024x16384x2 : Shape := ⟨3, ![1024, 16384, 2]⟩

abbrev nBuf : Space → Nat
  | .hbm => 10
  | .vmem => 0
  | .smem => 0
  | _ => 0

abbrev bufTy : (tb : Table) → Fin (tcTables nBuf tb) → BufTy
  | .hbm, ⟨0, _⟩ => ⟨S1024x16384x3, .f32⟩
  | .hbm, ⟨1, _⟩ => ⟨S1024x3x4, .f32⟩
  | .hbm, ⟨2, _⟩ => ⟨S_, .f32⟩
  | .hbm, ⟨3, _⟩ => ⟨S1024x16384x1, .f32⟩
  | .hbm, ⟨4, _⟩ => ⟨S1024x16384x4, .f32⟩
  | .hbm, ⟨5, _⟩ => ⟨S1024x16384x3, .f32⟩
  | .hbm, ⟨6, _⟩ => ⟨S1024x16384x2, .f32⟩
  | .hbm, ⟨7, _⟩ => ⟨S1024x16384x1, .f32⟩
  | .hbm, ⟨8, _⟩ => ⟨S1024x16384x2, .f32⟩
  | .hbm, ⟨9, _⟩ => ⟨S1024x16384x2, .f32⟩
  | _, _ => ⟨S1024x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S_S1024x16384x1 : S_.BroadcastsInDim S1024x16384x1 (![] : Fin 0 → Fin S1024x16384x1.rank)
  concatenates_S1024x16384x3_S1024x16384x1_S1024x16384x4_d2 : Shape.Concatenates [S1024x16384x3, S1024x16384x1] S1024x16384x4 2
  slices_S1024x16384x3_S1024x16384x2_0_0_0 : S1024x16384x3.Slices ![0, 0, 0] S1024x16384x2
  slices_S1024x16384x3_S1024x16384x1_0_0_2 : S1024x16384x3.Slices ![0, 0, 2] S1024x16384x1
  bcast_S1024x16384x1_S1024x16384x2_0_1_2 : S1024x16384x1.BroadcastsInDim S1024x16384x2 (![0, 1, 2] : Fin 3 → Fin S1024x16384x2.rank)
  dot_S1024x16384x4_S1024x3x4_S1024x16384x3_2_2_1_1_0_0_wf : DotDims.WF S1024x16384x4 S1024x3x4 S1024x16384x3 [2] [2] [1] [1] [0] [0]

variable [Facts₀]

def dot_S1024x16384x4_S1024x3x4_S1024x16384x3_2_2_1_1_0_0 : DotDims S1024x16384x4 S1024x3x4 S1024x16384x3 where
  lhsContracting := [2]
  rhsContracting := [2]
  lhsNonContracting := [1]
  rhsNonContracting := [1]
  lhsBatch := [0]
  rhsBatch := [0]
  wf := dot_S1024x16384x4_S1024x3x4_S1024x16384x3_2_2_1_1_0_0_wf

class Facts : Prop extends Facts₀ where

variable [Facts]
-- ==== Proof.Camera.lean ====
/-
  The function both programs compute.

  A batch `n` holds a 3×4 camera matrix `C` and 16384 points. A point `(x₀, x₁, x₂)` is read as the homogeneous
  vector `(x₀, x₁, x₂, 1)`; the camera sends it to `C · (x₀, x₁, x₂, 1)ᵀ = (h₀, h₁, h₂)`, row `j` of which is
  `h_j = x₀·C_j0 + x₁·C_j1 + x₂·C_j2 + C_j3`; the perspective divide keeps `(h₀ / h₂, h₁ / h₂)`.

  Everything is stated on the extended reals, with the sum associated from the left as written. Nothing here needs
  an input to be finite: the only law used anywhere is `1 · z = z`, which holds at the infinities too.
-/
import Idealize.ShloMosaic.PureOps.Ideal
import Idealize.ShloMosaic.Lib.ValueIdx

noncomputable section

namespace Cert.Reprojection

open Idealize.ShloMosaic Idealize.ShloMosaic.ValueIdx

/-- One row `(c₀, c₁, c₂, c₃)` of a camera matrix applied to the homogeneous point `(x₀, x₁, x₂, 1)`. -/
def camRow (x0 x1 x2 c0 c1 c2 c3 : EReal) : EReal := x0 * c0 + x1 * c1 + x2 * c2 + c3

/-- The four-term sum over the homogeneous coordinates, the last of them one, is that row: `1 · c₃ = c₃`. -/
theorem sum_four_eq_camRow (x0 x1 x2 c0 c1 c2 c3 : EReal) :
    x0 * c0 + x1 * c1 + x2 * c2 + 1 * c3 = camRow x0 x1 x2 c0 c1 c2 c3 := by
  rw [one_mul]; rfl

/-- The points: 1024 batches of 16384 points of 3 coordinates. -/
abbrev Points : Shape := ⟨3, ![1024, 16384, 3]⟩
/-- The cameras: one 3×4 matrix per batch. -/
abbrev Cameras : Shape := ⟨3, ![1024, 3, 4]⟩
/-- The images: 2 coordinates per point. -/
abbrev Images : Shape := ⟨3, ![1024, 16384, 2]⟩

/-- Coordinate `j` of batch `n`'s camera applied to its point `p`. -/
def homog (x : Points.Idx → EReal) (c : Cameras.Idx → EReal) (n : Fin 1024) (p : Fin 16384) (j : Fin 3) : EReal :=
  camRow (x (ix3 n p (0 : Fin 3))) (x (ix3 n p (1 : Fin 3))) (x (ix3 n p (2 : Fin 3)))
    (c (ix3 n j (0 : Fin 4))) (c (ix3 n j (1 : Fin 4))) (c (ix3 n j (2 : Fin 4))) (c (ix3 n j (3 : Fin 4)))

/-- The perspective divide: image coordinate `j` of point `p` of batch `n` is `h_j / h₂`. -/
def image (x : Points.Idx → EReal) (c : Cameras.Idx → EReal) (n : Fin 1024) (p : Fin 16384) (j : Fin 2) : EReal :=
  Ideal.div (homog x c n p (Fin.castLE (by decide) j)) (homog x c n p (2 : Fin 3))

/-- The whole result array, index by index. -/
def reprojected (x : Points.Idx → EReal) (c : Cameras.Idx → EReal) : Images.Idx → EReal :=
  fun i => image x c (i 0) (i 1) (i 2)

end Cert.Reprojection

end
-- ==== Proof.Reference.lean ====
/-
  The reference computes `reprojected`.

  It appends a column of ones to the points, multiplies by the transposed cameras batch by batch — entry
  `(n, p, j)` of the product is the sum over `k < 4` of `[x | 1](n, p, k) · C(n, j, k)` —, and divides columns 0 and 1
  of the product by column 2. The sum over four terms unfolds from the left, which is the order `camRow` is
  written in, and its last term is `1 · C(n, j, 3)`.
-/
import proofs.«120955_j72378788873086_2_alg».proof.Proof.Gen.ReferenceIdeal.Read
import proofs.«120955_j72378788873086_2_alg».proof.Proof.Camera
import Idealize.ShloMosaic.Lib.IdealHost

noncomputable section

namespace Cert.Reprojection.Reference

open Cert.ReferenceIdeal Cert.ReferenceIdeal.Gen Cert.ReferenceIdeal.Read
open Idealize.ShloMosaic Idealize.ShloMosaic.ValueIdx Idealize.ShloMosaic.TcCoe

variable (x : (⟨S1024x16384x3, .f32⟩ : BufTy).Contents (Elt Ideal)) (c : (⟨S1024x3x4, .f32⟩ : BufTy).Contents (Elt Ideal))

/-- The first three homogeneous coordinates of a point are the point's own. -/
theorem homogeneous_coord (n : Fin 1024) (p : Fin 16384) (k : Fin 4) (h : k.val < 3) :
    val_main_v1 (F := Ideal) x (ix3 n p k) = x (ix3 n p (⟨k.val, h⟩ : Fin 3)) := by
  unfold val_main_v1
  exact concatenate_pair_apply_left (2 : Fin 3) x _ _ (ix3 n p k) rfl (ix3 n p (⟨k.val, h⟩ : Fin 3))
    (fun b => by match b with | ⟨0, _⟩ => rfl | ⟨1, _⟩ => rfl | ⟨2, _⟩ => rfl)

/-- The fourth homogeneous coordinate is one. -/
theorem homogeneous_one (n : Fin 1024) (p : Fin 16384) :
    val_main_v1 (F := Ideal) x (ix3 n p (3 : Fin 4)) = 1 := by
  unfold val_main_v1
  rw [concatenate_pair_apply_right (2 : Fin 3) x (val_main_v0 (F := Ideal)) _ (ix3 n p (3 : Fin 4)) rfl rfl (ix3 n p (0 : Fin 1))
    (fun b hb => by match b with | ⟨0, _⟩ => rfl | ⟨1, _⟩ => rfl | ⟨2, _⟩ => exact absurd rfl hb) rfl]
  rw [val_main_v0_apply, val_main_cst_apply]
  exact Ideal.ofBits_one_f32

/-- Where the product's entry `(n, p, j)` reads its left operand: the homogeneous point `(n, p)`, -/
theorem left_index (n : Fin 1024) (p : Fin 16384) (j : Fin 3) (k : Fin 4) :
    lidx_main_v2 (ix3 n p j) k = ix3 n p k :=
  funext fun a => by match a with | ⟨0, _⟩ => rfl | ⟨1, _⟩ => rfl | ⟨2, _⟩ => rfl

/-- and its right operand: row `j` of camera `n`. -/
theorem right_index (n : Fin 1024) (p : Fin 16384) (j : Fin 3) (k : Fin 4) :
    ridx_main_v2 (ix3 n p j) k = ix3 n j k :=
  funext fun a => by match a with | ⟨0, _⟩ => rfl | ⟨1, _⟩ => rfl | ⟨2, _⟩ => rfl

/-- The batched product's entry `(n, p, j)` is row `j` of camera `n` applied to the homogeneous point. -/
theorem product_apply (n : Fin 1024) (p : Fin 16384) (j : Fin 3) :
    val_main_v2 (F := Ideal) x c (ix3 n p j) = homog x c n p j := by
  rw [val_main_v2_apply]
  simp only [left_index, right_index]
  rw [Fin.sum_univ_four, homogeneous_coord x n p 0 (by decide), homogeneous_coord x n p 1 (by decide),
    homogeneous_coord x n p 2 (by decide), homogeneous_one x n p]
  exact sum_four_eq_camRow _ _ _ _ _ _ _

/-- The numerator of image coordinate `j` is entry `j` of the product, -/
theorem numerator_index (n : Fin 1024) (p : Fin 16384) (j : Fin 2) :
    idx_main_v3 (ix3 n p j) = ix3 n p (Fin.castLE (by decide) j : Fin 3) :=
  funext fun a => by match a with | ⟨0, _⟩ => rfl | ⟨1, _⟩ => rfl | ⟨2, _⟩ => rfl

/-- and the denominator is entry 2, whichever the coordinate. -/
theorem denominator_index (n : Fin 1024) (p : Fin 16384) (j : Fin 2) :
    idx_main_v4 (idx_main_v5 (ix3 n p j)) = ix3 n p (2 : Fin 3) :=
  funext fun a => by match a with | ⟨0, _⟩ => rfl | ⟨1, _⟩ => rfl | ⟨2, _⟩ => rfl

/-- The reference's result is `reprojected` of its two arguments. -/
theorem result_eq : val_main_v6 (F := Ideal) x c = reprojected x c := by
  funext i
  obtain ⟨n, p, j, rfl⟩ : ∃ (n : Fin 1024) (p : Fin 16384) (j : Fin 2), i = ix3 n p j := ⟨i 0, i 1, i 2, eq_ix3 i⟩
  rw [val_main_v6_apply, val_main_v3_apply, val_main_v5_apply, val_main_v4_apply, numerator_index, denominator_index,
    product_apply, product_apply]
  rfl

end Cert.Reprojection.Reference

end
-- ==== Proof.Block.lean ====
/-
  What one grid point leaves in its output block.

  A grid point holds one batch: its points `P0 : [1, 16384, 3]` and its camera `P1 : [1, 3, 4]`. The body cuts the
  three coordinate columns `[1, 16384, 1]` out of `P0`; cuts each of the twelve camera entries out of `P1` as a
  `[1, 1, 1]` slice (cast to `[1]` and back, which changes nothing) and repeats it down the 16384 rows; forms the
  columns `h₀, h₁, h₂` by multiplying and adding these columns entry by entry; divides `h₀` and `h₁` by `h₂`; and
  joins the two quotient columns side by side. So entry `(0, p, j)` of the block is `h_j(p) / h₂(p)`, with `h_j`
  summed in exactly the order `camRow` is written in.
-/
import proofs.«120955_j72378788873086_2_alg».proof.Proof.Gen.KernelIdeal.Value
import proofs.«120955_j72378788873086_2_alg».proof.Proof.Camera
import Idealize.ShloMosaic.Lib.Pipeline.Value
import Idealize.ShloMosaic.Lib.ValueIdx

noncomputable section

namespace Cert.Reprojection.Block

open Cert.KernelIdeal Cert.KernelIdeal.Gen
open Idealize.ShloMosaic Idealize.ShloMosaic.ValueIdx Idealize.ShloMosaic.TcCoe

variable (P0 : Vec Ideal S1x16384x3 .f32) (P1 : Vec Ideal S1x3x4 .f32)

/-- Column `k` of the batch's points, cut out as `[1, 16384, 1]`, at row `p` is coordinate `k` of point `p`. -/
theorem coord_apply (off : Fin 3 → Nat) (h : S1x16384x3.Slices off S1x16384x1) (k : Fin 3) (ho : off = ![0, 0, k.val])
    (p : Fin 16384) :
    extractStridedSlice S1x16384x1 off P0 h (ix3 (0 : Fin 1) p (0 : Fin 1)) = P0 (ix3 (0 : Fin 1) p k) := by
  subst ho
  exact extractStridedSlice_apply _ P0 h _ (ix3 (0 : Fin 1) p k) (fun a => by
    match a with
    | ⟨0, _⟩ => rfl
    | ⟨1, _⟩ => show p.val = 0 + p.val; omega
    | ⟨2, _⟩ => show k.val = k.val + 0; omega)

/-- Entry `(r, k)` of the batch's camera, cut out, cast to a vector and back, and repeated down the rows, is that
    entry at every row. -/
theorem coeff_apply (off : Fin 3 → Nat) (h : S1x3x4.Slices off S1x1x1) (hc : S1x1x1.ShapeCasts S1)
    (hc' : S1.ShapeCasts S1x1x1) (hb : S1x1x1.Broadcasts S1x16384x1) (r : Fin 3) (k : Fin 4)
    (ho : off = ![0, r.val, k.val]) (y : S1x16384x1.Idx) :
    broadcastTo S1x16384x1 (shapeCast S1x1x1 (shapeCast S1 (extractStridedSlice S1x1x1 off P1 h) hc) hc') hb y
      = P1 (ix3 (0 : Fin 1) r k) := by
  subst ho
  rw [shapeCast_shapeCast, broadcastTo_apply _ hb y (ix3 (0 : Fin 1) (0 : Fin 1) (0 : Fin 1))
    (fun a => by match a with | ⟨0, _⟩ => rfl | ⟨1, _⟩ => rfl | ⟨2, _⟩ => rfl)]
  exact extractStridedSlice_apply _ P1 h _ (ix3 (0 : Fin 1) r k) (fun a => by
    match a with
    | ⟨0, _⟩ => rfl
    | ⟨1, _⟩ => show r.val = r.val + 0; omega
    | ⟨2, _⟩ => show k.val = k.val + 0; omega)

/-- Entry `(0, p, j)` of the block the body leaves: row `j` of the camera applied to point `p`, over row 2 applied
    to it. -/
theorem block_apply (p : Fin 16384) (j : Fin 2) :
    Value.E2 P0 P1 (ix3 (0 : Fin 1) p j) =
      Ideal.div (camRow (P0 (ix3 (0 : Fin 1) p (0 : Fin 3))) (P0 (ix3 (0 : Fin 1) p (1 : Fin 3))) (P0 (ix3 (0 : Fin 1) p (2 : Fin 3)))
        (P1 (ix3 (0 : Fin 1) (Fin.castLE (by decide) j : Fin 3) (0 : Fin 4))) (P1 (ix3 (0 : Fin 1) (Fin.castLE (by decide) j : Fin 3) (1 : Fin 4)))
        (P1 (ix3 (0 : Fin 1) (Fin.castLE (by decide) j : Fin 3) (2 : Fin 4))) (P1 (ix3 (0 : Fin 1) (Fin.castLE (by decide) j : Fin 3) (3 : Fin 4))))
        (camRow (P0 (ix3 (0 : Fin 1) p (0 : Fin 3))) (P0 (ix3 (0 : Fin 1) p (1 : Fin 3))) (P0 (ix3 (0 : Fin 1) p (2 : Fin 3)))
        (P1 (ix3 (0 : Fin 1) (2 : Fin 3) (0 : Fin 4))) (P1 (ix3 (0 : Fin 1) (2 : Fin 3) (1 : Fin 4)))
        (P1 (ix3 (0 : Fin 1) (2 : Fin 3) (2 : Fin 4))) (P1 (ix3 (0 : Fin 1) (2 : Fin 3) (3 : Fin 4)))) := by
  have e : Value.ix2_0 (ix3 (0 : Fin 1) p j) = ix3 (0 : Fin 1) p (0 : Fin 1) :=
    funext fun a => by match a with | ⟨0, _⟩ => rfl | ⟨1, _⟩ => rfl | ⟨2, _⟩ => rfl
  show Value.Cat2_0 P0 P1 (Value.csel2_0 (ix3 (0 : Fin 1) p j)) (Value.ix2_0 (ix3 (0 : Fin 1) p j)) = _
  rw [e]
  match j with
  | ⟨0, _⟩ =>
    show Value.Cat2_0 P0 P1 (⟨0, by decide⟩ : Fin 2) (ix3 (0 : Fin 1) p (0 : Fin 1)) = _
    dsimp only [Value.Cat2_0]
    simp only [divf_apply, addf_apply, mulf_apply]
    rw [coord_apply P0 ![0, 0, 0] _ (0 : Fin 3) rfl p, coord_apply P0 ![0, 0, 1] _ (1 : Fin 3) rfl p,
      coord_apply P0 ![0, 0, 2] _ (2 : Fin 3) rfl p,
      coeff_apply P1 ![0, 0, 0] _ _ _ _ (0 : Fin 3) (0 : Fin 4) rfl,
      coeff_apply P1 ![0, 0, 1] _ _ _ _ (0 : Fin 3) (1 : Fin 4) rfl,
      coeff_apply P1 ![0, 0, 2] _ _ _ _ (0 : Fin 3) (2 : Fin 4) rfl,
      coeff_apply P1 ![0, 0, 3] _ _ _ _ (0 : Fin 3) (3 : Fin 4) rfl,
      coeff_apply P1 ![0, 2, 0] _ _ _ _ (2 : Fin 3) (0 : Fin 4) rfl,
      coeff_apply P1 ![0, 2, 1] _ _ _ _ (2 : Fin 3) (1 : Fin 4) rfl,
      coeff_apply P1 ![0, 2, 2] _ _ _ _ (2 : Fin 3) (2 : Fin 4) rfl,
      coeff_apply P1 ![0, 2, 3] _ _ _ _ (2 : Fin 3) (3 : Fin 4) rfl]
    rfl
  | ⟨1, _⟩ =>
    show Value.Cat2_0 P0 P1 (⟨1, by decide⟩ : Fin 2) (ix3 (0 : Fin 1) p (0 : Fin 1)) = _
    dsimp only [Value.Cat2_0]
    simp only [divf_apply, addf_apply, mulf_apply]
    rw [coord_apply P0 ![0, 0, 0] _ (0 : Fin 3) rfl p, coord_apply P0 ![0, 0, 1] _ (1 : Fin 3) rfl p,
      coord_apply P0 ![0, 0, 2] _ (2 : Fin 3) rfl p,
      coeff_apply P1 ![0, 1, 0] _ _ _ _ (1 : Fin 3) (0 : Fin 4) rfl,
      coeff_apply P1 ![0, 1, 1] _ _ _ _ (1 : Fin 3) (1 : Fin 4) rfl,
      coeff_apply P1 ![0, 1, 2] _ _ _ _ (1 : Fin 3) (2 : Fin 4) rfl,
      coeff_apply P1 ![0, 1, 3] _ _ _ _ (1 : Fin 3) (3 : Fin 4) rfl,
      coeff_apply P1 ![0, 2, 0] _ _ _ _ (2 : Fin 3) (0 : Fin 4) rfl,
      coeff_apply P1 ![0, 2, 1] _ _ _ _ (2 : Fin 3) (1 : Fin 4) rfl,
      coeff_apply P1 ![0, 2, 2] _ _ _ _ (2 : Fin 3) (2 : Fin 4) rfl,
      coeff_apply P1 ![0, 2, 3] _ _ _ _ (2 : Fin 3) (3 : Fin 4) rfl]
    rfl

/-- The body loads and stores whole staging buffers: every access starts at the origin. -/
theorem origin : (![0, 0, 0] : Fin 3 → Nat) = fun _ => 0 := funext fun a => by fin_cases a <;> rfl

/-- What the body leaves in its output buffer, from the staged points `P0` and camera `P1`: at `(0, p, j)`, row `j` of
    the camera applied to point `p`, over row 2 applied to it. The body's one store covers the buffer, so the buffer
    holds the stored value, which is the block read above of the two loads; and a whole-buffer load reads the
    buffer as it is. -/
theorem body_apply (p : Fin 16384) (j : Fin 2) :
    out0_2 P0 P1 (ix3 (0 : Fin 1) p j) =
      Ideal.div (camRow (P0 (ix3 (0 : Fin 1) p (0 : Fin 3))) (P0 (ix3 (0 : Fin 1) p (1 : Fin 3))) (P0 (ix3 (0 : Fin 1) p (2 : Fin 3)))
        (P1 (ix3 (0 : Fin 1) (Fin.castLE (by decide) j : Fin 3) (0 : Fin 4))) (P1 (ix3 (0 : Fin 1) (Fin.castLE (by decide) j : Fin 3) (1 : Fin 4)))
        (P1 (ix3 (0 : Fin 1) (Fin.castLE (by decide) j : Fin 3) (2 : Fin 4))) (P1 (ix3 (0 : Fin 1) (Fin.castLE (by decide) j : Fin 3) (3 : Fin 4))))
        (camRow (P0 (ix3 (0 : Fin 1) p (0 : Fin 3))) (P0 (ix3 (0 : Fin 1) p (1 : Fin 3))) (P0 (ix3 (0 : Fin 1) p (2 : Fin 3)))
        (P1 (ix3 (0 : Fin 1) (2 : Fin 3) (0 : Fin 4))) (P1 (ix3 (0 : Fin 1) (2 : Fin 3) (1 : Fin 4)))
        (P1 (ix3 (0 : Fin 1) (2 : Fin 3) (2 : Fin 4))) (P1 (ix3 (0 : Fin 1) (2 : Fin 3) (3 : Fin 4)))) := by
  unfold out0_2
  refine (Value.canon2_eq (View.ld P0 r0_0) (View.ld P1 r0_1) (ix3 (0 : Fin 1) p j)).trans ?_
  refine (block_apply (View.ld P0 r0_0) (View.ld P1 r0_1) p j).trans ?_
  rw [View.ld_unit_zero (S := S1x16384x3) origin, View.ld_unit_zero (S := S1x3x4) origin]

end Cert.Reprojection.Block

end
-- ==== Proof.Whole.lean ====
/-
  From one batch to the whole array.

  The grid has one point per batch. Point `t` stages batch `t` of the points, batch `t` of the cameras, and writes
  back batch `t` of the images: every window's block index is `(t, 0, 0)` and each block spans the whole of the
  other two axes. So entry `(0, p, j)` of the block point `t` writes lies at `(t, p, j)` of the images and is computed
  from entries `(t, p, ·)` of the points and `(t, ·, ·)` of the cameras: what point `t` writes back is block `t` of
  `reprojected`. Index `(n, p, j)` lies in block `n`, so the 1024 blocks cover the array, and the array ends as
  `reprojected` of the two arguments.
-/
import proofs.«120955_j72378788873086_2_alg».proof.Proof.Gen.KernelIdeal.Value
import proofs.«120955_j72378788873086_2_alg».proof.Proof.Block

noncomputable section

namespace Cert.Reprojection.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every window's block at point `t` is batch `t`, whole on the other two axes (decided over the 1024 points). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Where entry `y` of the block point `t` writes lies in the images. -/
abbrev place (t : Fin cfg0.N) (y : S1x16384x2.Idx) : S1024x16384x2.Idx := ((cfg0.win 2).blk t).view.emb y

/-- The image coordinate is kept: the block spans the whole last axis. -/
theorem place_coord (t : Fin cfg0.N) (p : Fin 16384) (j : Fin 2) : place t (ix3 (0 : Fin 1) p j) (2 : Fin 3) = j := by
  obtain ⟨-, -, -, -, -, -, -, -, a22⟩ := block_index t
  apply Fin.ext
  show win0_2.index t (2 : Fin 3) * 2 + 1 * j.val = j.val
  omega

/-- Coordinate `k` of point `p` of the staged batch is coordinate `k` of the point the written entry belongs to. -/
theorem staged_point (c : Dev nD) (t : Fin cfg0.N) (p : Fin 16384) (j : Fin 2) (k : Fin 3) :
    iblk m c 0 t (ix3 (0 : Fin 1) p k)
      = V m c main_arg0 (ix3 (place t (ix3 (0 : Fin 1) p j) (0 : Fin 3)) (place t (ix3 (0 : Fin 1) p j) (1 : Fin 3)) k) := by
  obtain ⟨a00, a01, a02, -, -, -, a20, a21, -⟩ := block_index t
  show V m c main_arg0 (((cfg0.win 0).blk t).view.emb (ix3 (0 : Fin 1) p k)) = _
  refine congrArg _ (funext fun a => Fin.ext ?_)
  match a with
  | ⟨0, _⟩ => show win0_0.index t (0 : Fin 3) * 1 + 1 * 0 = win0_2.index t (0 : Fin 3) * 1 + 1 * 0; omega
  | ⟨1, _⟩ => show win0_0.index t (1 : Fin 3) * 16384 + 1 * p.val = win0_2.index t (1 : Fin 3) * 16384 + 1 * p.val; omega
  | ⟨2, _⟩ => show win0_0.index t (2 : Fin 3) * 3 + 1 * k.val = k.val; omega

/-- Entry `(r, k)` of the staged camera is entry `(r, k)` of the camera of the batch the written entry belongs to. -/
theorem staged_camera (c : Dev nD) (t : Fin cfg0.N) (p : Fin 16384) (j : Fin 2) (r : Fin 3) (k : Fin 4) :
    iblk m c 1 t (ix3 (0 : Fin 1) r k) = V m c main_arg1 (ix3 (place t (ix3 (0 : Fin 1) p j) (0 : Fin 3)) r k) := by
  obtain ⟨-, -, -, a10, a11, a12, a20, -, -⟩ := block_index t
  show V m c main_arg1 (((cfg0.win 1).blk t).view.emb (ix3 (0 : Fin 1) r k)) = _
  refine congrArg _ (funext fun a => Fin.ext ?_)
  match a with
  | ⟨0, _⟩ => show win0_1.index t (0 : Fin 3) * 1 + 1 * 0 = win0_2.index t (0 : Fin 3) * 1 + 1 * 0; omega
  | ⟨1, _⟩ => show win0_1.index t (1 : Fin 3) * 3 + 1 * r.val = r.val; omega
  | ⟨2, _⟩ => show win0_1.index t (2 : Fin 3) * 4 + 1 * k.val = k.val; omega

/-- What the body leaves at entry `y` of point `t`'s block is `reprojected` of the arguments where that entry lies. -/
theorem written (c : Dev nD) (t : Fin cfg0.N) (y : S1x16384x2.Idx) :
    out0_2 (iblk m c 0 t) (iblk m c 1 t) y = reprojected (V m c main_arg0) (V m c main_arg1) (place t y) := by
  obtain ⟨z, p, j, rfl⟩ : ∃ (z : Fin 1) (p : Fin 16384) (j : Fin 2), y = ix3 z p j := ⟨y 0, y 1, y 2, eq_ix3 y⟩
  obtain rfl : z = 0 := Subsingleton.elim _ _
  refine (Block.body_apply (iblk m c 0 t) (iblk m c 1 t) p j).trans ?_
  simp only [staged_point m c t p j, staged_camera m c t p j]
  show _ = image (V m c main_arg0) (V m c main_arg1) (place t (ix3 (0 : Fin 1) p j) (0 : Fin 3))
    (place t (ix3 (0 : Fin 1) p j) (1 : Fin 3)) (place t (ix3 (0 : Fin 1) p j) (2 : Fin 3))
  rw [place_coord t p j]
  rfl

/-- What point `t` writes back to the images is block `t` of `reprojected` of the argument arrays. -/
theorem flushed_eq (c : Dev nD) (t : Fin cfg0.N) :
    (dats m 0 c).flushed 2 t
      = ((cfg0.win 2).blk t).view.read (Elt Ideal) (reprojected (V m c main_arg0) (V m c main_arg1)) := by
  rw [Value.flushed2]
  funext y
  exact written m c t y

/-- An index of the images is in point `t`'s block iff each coordinate is in the block's range on its axis. -/
theorem mem_block (t : Fin cfg0.N) (i : S1024x16384x2.Idx) :
    i ∈ ((cfg0.win 2).blk t).view.set ↔ ∀ a : Fin 3, win0_2.index t a * S1x16384x2.size a ≤ (i a).val
      ∧ (i a).val < win0_2.index t a * S1x16384x2.size a + S1x16384x2.size a := by
  show i ∈ ((View.whole main_v0).slice (win0_2.rect t)).set ↔ _
  rw [View.set_slice_whole, Rect.mem_set_unit]
  exact Iff.rfl

/-- Every index of the images lies in the block of the point its batch coordinate names. -/
theorem covered (i : S1024x16384x2.Idx) :
    ∃ t : Fin cfg0.N, (cfg0.win 2).flush t = true ∧ i ∈ ((cfg0.win 2).blk t).view.set := by
  have hN : cfg0.N = 1024 := by decide
  have h0 : (i 0).val < 1024 := (i 0).isLt
  have h1 : (i 1).val < 16384 := (i 1).isLt
  have h2 : (i 2).val < 2 := (i 2).isLt
  obtain ⟨t, ht⟩ : ∃ t : Fin cfg0.N, t.val = (i 0).val := ⟨⟨(i 0).val, by rw [hN]; exact h0⟩, rfl⟩
  obtain ⟨-, -, -, -, -, -, a20, a21, a22⟩ := block_index t
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 16384 ≤ (i 1).val ∧ (i 1).val < win0_2.index t (1 : Fin 3) * 16384 + 16384
    omega
  | ⟨2, _⟩ =>
    show win0_2.index t (2 : Fin 3) * 2 ≤ (i 2).val ∧ (i 2).val < win0_2.index t (2 : Fin 3) * 2 + 2
    omega

/-- The blocks agree with `reprojected` and cover the images, so after the run the images are `reprojected` of the
    two arguments. -/
theorem final (c : Dev nD) :
    (dats m 0 c).arrAt 2 cfg0.N
      = reprojected (m ((c : Thread nD τ).loc main_arg0)) (m ((c : Thread nD τ).loc main_arg1)) :=
  (dats m 0 c).arrAt_eq_of_cover 2 (reprojected (V m c main_arg0) (V m c main_arg1))
    (fun t _ => flushed_eq m c t) covered

/-- The kernel's run: the images end as `reprojected` of the arguments, the arguments unchanged. -/
theorem run : θ_run defs (onTc (τ := τ) (main (F := Ideal))) ⟨m, fun _ => 0, ρ⟩ fun r => ∀ c : Dev nD,
      r.2.mem ((c : Thread nD τ).loc main_v0)
        = reprojected (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Reprojection.Kernel

end
-- ==== Proof.lean ====
/-
  A batched camera reprojection: for each of 1024 batches, 16384 points `(x₀, x₁, x₂)` are sent through the batch's
  3×4 camera matrix `C` as homogeneous points, `h_j = x₀·C_j0 + x₁·C_j1 + x₂·C_j2 + C_j3` for `j = 0, 1, 2`, and
  projected to `(h₀ / h₂, h₁ / h₂)`.

  The kernel handles one batch per grid point and forms each `h_j` by broadcast multiply-adds; the reference appends
  a column of ones to the points, takes the batched matrix product with the transposed cameras, and divides the first
  two columns of the product by the third. On the extended reals the product's four-term sum, unfolded from the left,
  is the kernel's sum term by term once `1 · C_j3 = C_j3`; both divide by the same `h₂` with the same division. No
  input needs to be finite for this, so the precondition is never opened.

  `Proof/Camera.lean` states the common function `reprojected`; `Proof/Reference.lean` reads the reference's result as
  it; `Proof/Block.lean` reads one grid point's output block, and `Proof/Whole.lean` the whole array after the kernel's
  run, as it. The three frames are the programs' generated runs; the idealization rewrote nothing, so there is nothing
  to preserve.
-/
import proofs.«120955_j72378788873086_2_alg».proof.Defs
import proofs.«120955_j72378788873086_2_alg».proof.Proof.Gen.Kernel
import proofs.«120955_j72378788873086_2_alg».proof.Proof.Gen.Kernel.Skeleton
import proofs.«120955_j72378788873086_2_alg».proof.Proof.Gen.Kernel.Launch
import proofs.«120955_j72378788873086_2_alg».proof.Proof.Gen.Kernel.Points
import proofs.«120955_j72378788873086_2_alg».proof.Proof.Gen.Kernel.Frame
import proofs.«120955_j72378788873086_2_alg».proof.Proof.Gen.KernelIdeal
import proofs.«120955_j72378788873086_2_alg».proof.Proof.Gen.KernelIdeal.Skeleton
import proofs.«120955_j72378788873086_2_alg».proof.Proof.Gen.KernelIdeal.Launch
import proofs.«120955_j72378788873086_2_alg».proof.Proof.Gen.KernelIdeal.Points
import proofs.«120955_j72378788873086_2_alg».proof.Proof.Gen.KernelIdeal.Frame
import proofs.«120955_j72378788873086_2_alg».proof.Proof.Gen.KernelIdeal.Value
import proofs.«120955_j72378788873086_2_alg».proof.Proof.Gen.ReferenceIdeal
import proofs.«120955_j72378788873086_2_alg».proof.Proof.Gen.ReferenceIdeal.Run
import proofs.«120955_j72378788873086_2_alg».proof.Proof.Gen.ReferenceIdeal.Read
import proofs.«120955_j72378788873086_2_alg».proof.Proof.Gen.Pre_finite_inputs
import proofs.«120955_j72378788873086_2_alg».proof.Proof.Camera
import proofs.«120955_j72378788873086_2_alg».proof.Proof.Reference
import proofs.«120955_j72378788873086_2_alg».proof.Proof.Block
import proofs.«120955_j72378788873086_2_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's images and the reference's result are both `reprojected` of them. -/
theorem algebraic : Cert.algebraic_KernelIdeal_ReferenceIdeal := by
  intro m ρ m' ρ' _ hagree
  refine ⟨_, Cert.Reprojection.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Reprojection.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
